-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S8x64 .f32) (main_arg10 : FVec F S8 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S8x64 .f32) (main_arg10 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S8x64 .f32) (main_arg10 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S1x1200000 : Shape := ⟨2, ![1, 1200000]⟩
abbrev S1200000 : Shape := ⟨1, ![1200000]⟩
abbrev S64x8 : Shape := ⟨2, ![64, 8]⟩
abbrev S1x64 : Shape := ⟨2, ![1, 64]⟩
abbrev S1x8 : Shape := ⟨2, ![1, 8]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S10000x64 : Shape := ⟨2, ![10000, 64]⟩
abbrev S256x64 : Shape := ⟨2, ![256, 64]⟩
abbrev S256 : Shape := ⟨1, ![256]⟩
abbrev S256x1 : Shape := ⟨2, ![256, 1]⟩
abbrev S256x8 : Shape := ⟨2, ![256, 8]⟩

abbrev nBuf : Space → Nat
  | .hbm => 92
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S8x64, .f32⟩
  | .hbm, ⟨10, _⟩ => ⟨S8, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x8, .f32⟩
  | .hbm, ⟨20, _⟩ => ⟨S1x64, .f32⟩
  | .hbm, ⟨21, _⟩ => ⟨S1x64, .f32⟩
  | .hbm, ⟨22, _⟩ => ⟨S1x8, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .f32⟩
  | .hbm, ⟨32, _⟩ => ⟨S_, .f32⟩
  | .hbm, ⟨33, _⟩ => ⟨S100000x64, .f32⟩
  | .hbm, ⟨34, _⟩ => ⟨S1200000x1, .i32⟩
  | .hbm, ⟨35, _⟩ => ⟨S100000x64, .f32⟩
  | .hbm, ⟨36, _⟩ => ⟨S_, .f32⟩
  | .hbm, ⟨37, _⟩ => ⟨S1200000, .f32⟩
  | .hbm, ⟨38, _⟩ => ⟨S_, .f32⟩
  | .hbm, ⟨39, _⟩ => ⟨S100000, .f32⟩
  | .hbm, ⟨40, _⟩ => ⟨S1200000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S_, .f32⟩
  | .hbm, ⟨63, _⟩ => ⟨S1200000, .f32⟩
  | .hbm, ⟨64, _⟩ => ⟨S_, .f32⟩
  | .hbm, ⟨65, _⟩ => ⟨S100000, .f32⟩
  | .hbm, ⟨66, _⟩ => ⟨S1200000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S256x64, .f32⟩
  | .hbm, ⟨77, _⟩ => ⟨S100000x1, .i32⟩
  | .hbm, ⟨78, _⟩ => ⟨S256x64, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S256, .f32⟩
  | .hbm, ⟨83, _⟩ => ⟨S100000x1, .i32⟩
  | .hbm, ⟨84, _⟩ => ⟨S256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S256x1, .f32⟩
  | .hbm, ⟨89, _⟩ => ⟨S256x64, .f32⟩
  | .hbm, ⟨90, _⟩ => ⟨S256x64, .f32⟩
  | .hbm, ⟨91, _⟩ => ⟨S256x8, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S256x64, .f32⟩
  | .local _ .vmem, ⟨19, _⟩ => ⟨S64x8, .f32⟩
  | .local _ .vmem, ⟨20, _⟩ => ⟨S1x8, .f32⟩
  | .local _ .vmem, ⟨21, _⟩ => ⟨S256x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  transposes_S64x64_S64x64_1_0 : S64x64.Transposes [1, 0] S64x64
  transposes_S8x64_S64x8_1_0 : S8x64.Transposes [1, 0] S64x8
  shapeCasts_S64_S1x64 : S64.ShapeCasts S1x64
  shapeCasts_S8_S1x8 : S8.ShapeCasts S1x8
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x8_S256x8_1_0_0_1_n_n_wf : DotDims.WF S256x64 S64x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x8.size a ≤ S64x8.size a
  hwx2_1 : ∀ i : grid2.Coords, EltTy.bits .f32 = 32 ∨ (Rect.block (s := S64x8) S64x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x8.size a ≤ S256x8.size a
  hwx2_3 : ∀ i : grid2.Coords, EltTy.bits .f32 = 32 ∨ (Rect.block (s := S256x8) S256x8.size (cc2_transform_3 i) (hinb2_3 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf

abbrev win0_0 : Pipeline.Window sig grid0 :=
  Pipeline.Window.ofSpec (Memref.whole main_v30) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S256x8.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S64x8 : Shape := ⟨2, ![64, 8]⟩
abbrev S256x8 : Shape := ⟨2, ![256, 8]⟩
abbrev S1x8 : Shape := ⟨2, ![1, 8]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S8x64, .f32⟩
  | .hbm, ⟨10, _⟩ => ⟨S8, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S_, .f32⟩
  | .hbm, ⟨29, _⟩ => ⟨S1200000, .f32⟩
  | .hbm, ⟨30, _⟩ => ⟨S_, .f32⟩
  | .hbm, ⟨31, _⟩ => ⟨S100000, .f32⟩
  | .hbm, ⟨32, _⟩ => ⟨S1200000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x64, .f32⟩
  | .hbm, ⟨60, _⟩ => ⟨S_, .f32⟩
  | .hbm, ⟨61, _⟩ => ⟨S100000x64, .f32⟩
  | .hbm, ⟨62, _⟩ => ⟨S1200000x1, .i32⟩
  | .hbm, ⟨63, _⟩ => ⟨S100000x64, .f32⟩
  | .hbm, ⟨64, _⟩ => ⟨S_, .f32⟩
  | .hbm, ⟨65, _⟩ => ⟨S1200000, .f32⟩
  | .hbm, ⟨66, _⟩ => ⟨S_, .f32⟩
  | .hbm, ⟨67, _⟩ => ⟨S100000, .f32⟩
  | .hbm, ⟨68, _⟩ => ⟨S1200000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S256x64, .f32⟩
  | .hbm, ⟨89, _⟩ => ⟨S100000x1, .i32⟩
  | .hbm, ⟨90, _⟩ => ⟨S256x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S256, .f32⟩
  | .hbm, ⟨95, _⟩ => ⟨S100000x1, .i32⟩
  | .hbm, ⟨96, _⟩ => ⟨S256, .f32⟩
  | .hbm, ⟨97, _⟩ => ⟨S_, .f32⟩
  | .hbm, ⟨98, _⟩ => ⟨S256, .f32⟩
  | .hbm, ⟨99, _⟩ => ⟨S256, .f32⟩
  | .hbm, ⟨100, _⟩ => ⟨S256x1, .f32⟩
  | .hbm, ⟨101, _⟩ => ⟨S256x64, .f32⟩
  | .hbm, ⟨102, _⟩ => ⟨S256x64, .f32⟩
  | .hbm, ⟨103, _⟩ => ⟨S64x8, .f32⟩
  | .hbm, ⟨104, _⟩ => ⟨S256x8, .f32⟩
  | .hbm, ⟨105, _⟩ => ⟨S1x8, .f32⟩
  | .hbm, ⟨106, _⟩ => ⟨S256x8, .f32⟩
  | .hbm, ⟨107, _⟩ => ⟨S256x8, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  transposes_S8x64_S64x8_1_0 : S8x64.Transposes [1, 0] S64x8
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x8_S256x8_1_0_0_1_n_n_wf : DotDims.WF S256x64 S64x8 S256x8 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf

class Facts : Prop extends Facts₀ where

variable [Facts]
-- ==== Proof.KRun.lean ====
/-
  The idealized kernel program's run with its result named.

  Every weakly fair execution of the program terminates without a fault, leaves the eleven argument arrays as
  launched, and leaves the result array holding what the fold through the program says: the launch memory carried
  through the first stretch of host operations, the first layer's write-backs, the second stretch, the second
  layer's write-backs, the third stretch and the classifier's write-back. The later modules read that fold.
-/
import proofs.«163168_j43465069036000_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the fold's last contents, the arguments as launched. -/
theorem run_named : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.Spec.lean ====
/-
  The network, stated once as mathematics.

  Nodes carry rows of 64 features. A layer replaces node r's row by the positive part of
  (mean of the neighbours' rows) · Wl + (its own row) · Wr + bias; the mean over the incoming edges is a gather of
  source rows, a sum by target, and a division by max(in-degree, 1). After two layers the rows are averaged per graph
  (a sum by graph label divided by max(graph size, 1)) and mapped affinely to 8 scores.

  The sparse parts (gather, sum by segment, the division by the clamped count) are kept as the array operations
  themselves: both programs apply the very same operations there, so nothing about them is ever opened. The dense
  parts are given entry by entry as textbook sums on the extended reals.
-/
import proofs.«163168_j43465069036000_1_alg».proof.Proof.Gen.KernelIdeal
import Idealize.ShloMosaic.PureOps.Ideal
import Idealize.ShloMosaic.Lib.ValueIdx

noncomputable section

open scoped BigOperators

namespace Cert.GraphNet

open Idealize.ShloMosaic Idealize.ShloMosaic.ValueIdx Cert.KernelIdeal Cert.KernelIdeal.Facts₀

/-- The edges' source nodes: row 0 of the 2 × E edge list, as a vector. -/
def sources (ei : IVec S2x1200000 32) : IVec S1200000 32 :=
  shapeCast S1200000 (extractStridedSlice S1x1200000 ![0, 0] ei slices_S2x1200000_S1x1200000_0_0) shapeCasts_S1x1200000_S1200000

/-- The edges' target nodes: row 1 of the edge list, as a vector. -/
def targets (ei : IVec S2x1200000 32) : IVec S1200000 32 :=
  shapeCast S1200000 (extractStridedSlice S1x1200000 ![1, 0] ei slices_S2x1200000_S1x1200000_1_0) shapeCasts_S1x1200000_S1200000

/-- The mean of the neighbours' rows: row n is the sum over the edges e with target n of the row of e's source
    (a negative source index counted from the end), divided by max(number of such edges, 1). -/
def neighbourMean (h : FVec Ideal S100000x64 .f32) (src dst : IVec S1200000 32) : FVec Ideal S100000x64 .f32 :=
  Host.divf
    (Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 dst)
      (Host.gather gather_S100000x64_S1200000x1_S1200000x64_1_0_n_n_0_1_164 h
        (broadcastInDim S1200000x1 ![0] bcast_S1200000_S1200000x1_0
          (select (cmpi .slt src (broadcastInDim S1200000 ![] bcast_S_S1200000 (constantI S_ 32 0#32)))
            (addi src (broadcastInDim S1200000 ![] bcast_S_S1200000 (constantI S_ 32 100000#32))) src))))
    (broadcastInDim S100000x64 ![0, 1] bcast_S100000x1_S100000x64_0_1
      (broadcastInDim S100000x1 ![0] bcast_S100000_S100000x1_0
        (maximumf
          (Host.scatterAdd scatter_S100000_S1200000x1_S1200000_n_0_0_1
            (broadcastInDim S100000 ![] bcast_S_S100000 (constant (F := Ideal) S_ .f32 0x00000000#32))
            (broadcastInDim S1200000x1 ![0] bcast_S1200000_S1200000x1_0 dst)
            (broadcastInDim S1200000 ![] bcast_S_S1200000 (constant (F := Ideal) S_ .f32 0x3F800000#32)))
          (broadcastInDim S100000 ![] bcast_S_S100000 (constant (F := Ideal) S_ .f32 0x3F800000#32)))))

/-- The mean of the rows of each graph: row g is the sum of the rows of the nodes labelled g, divided by
    max(number of such nodes, 1). -/
def graphMean (h : FVec Ideal S100000x64 .f32) (batch : IVec S100000 32) : FVec Ideal S256x64 .f32 :=
  Host.divf
    (Host.scatterAdd scatter_S256x64_S100000x1_S100000x64_1_0_0_1
      (broadcastInDim S256x64 ![] bcast_S_S256x64 (constant (F := Ideal) S_ .f32 0x00000000#32))
      (broadcastInDim S100000x1 ![0] bcast_S100000_S100000x1_0 batch)
      h)
    (broadcastInDim S256x64 ![0, 1] bcast_S256x1_S256x64_0_1
      (broadcastInDim S256x1 ![0] bcast_S256_S256x1_0
        (maximumf
          (Host.scatterAdd scatter_S256_S100000x1_S100000_n_0_0_1
            (broadcastInDim S256 ![] bcast_S_S256 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S256 ![] bcast_S_S256 (constant (F := Ideal) S_ .f32 0x3F800000#32)))))

/-- One entry of a layer: the positive part of (Σ_k a(r,k)·wl(k,j) + Σ_k x(r,k)·wr(k,j)) + b(0,j), for the rows a
    of neighbour means, the rows x of the nodes' own features, two K × M weight matrices and a one-row bias. -/
def layerEntry {N K M : Nat} (a x : FVec Ideal ⟨2, ![N, K]⟩ .f32) (wl wr : FVec Ideal ⟨2, ![K, M]⟩ .f32)
    (b : FVec Ideal ⟨2, ![1, M]⟩ .f32) (r : Fin N) (j : Fin M) : Ideal .f32 :=
  max (((∑ k : Fin K, a (ix2 r k) * wl (ix2 k j)) + (∑ k : Fin K, x (ix2 r k) * wr (ix2 k j))) + b (ix2 (0 : Fin 1) j)) 0

/-- One entry of an affine map: Σ_k g(r,k)·w(k,j) + b(0,j). -/
def affineEntry {N K M : Nat} (g : FVec Ideal ⟨2, ![N, K]⟩ .f32) (w : FVec Ideal ⟨2, ![K, M]⟩ .f32)
    (b : FVec Ideal ⟨2, ![1, M]⟩ .f32) (r : Fin N) (j : Fin M) : Ideal .f32 :=
  (∑ k : Fin K, g (ix2 r k) * w (ix2 k j)) + b (ix2 (0 : Fin 1) j)

/-- A layer over all 100000 nodes. -/
def layer (a x : FVec Ideal S100000x64 .f32) (wl wr : FVec Ideal S64x64 .f32) (b : FVec Ideal S1x64 .f32) :
    FVec Ideal S100000x64 .f32 :=
  fun i => layerEntry (N := 100000) (K := 64) (M := 64) a x wl wr b (i 0) (i 1)

/-- The scores of all 256 graphs. -/
def scores (g : FVec Ideal S256x64 .f32) (w : FVec Ideal S64x8 .f32) (b : FVec Ideal S1x8 .f32) : FVec Ideal S256x8 .f32 :=
  fun i => affineEntry (N := 256) (K := 64) (M := 8) g w b (i 0) (i 1)

end Cert.GraphNet

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Tile.lean ====
/-
  Each kernel body, read at an entry.

  The two layer bodies round their four operands to a narrower format (the identity on the extended reals), form
  the two matrix products into zero accumulators, add them, add the one-row bias broadcast over the rows and take the
  maximum with zero: at row p and column q that is the layer's entry. The classifier body is one product plus the
  broadcast bias row: the affine entry.
-/
import proofs.«163168_j43465069036000_1_alg».proof.Proof.Gen.KernelIdeal.Skeleton
import proofs.«163168_j43465069036000_1_alg».proof.Proof.Spec
import proofs.«163168_j43465069036000_1_alg».proof.Proof.LibMatmulNN
import Idealize.ShloMosaic.Lib.ValueLayout
import Idealize.ShloMosaic.Lib.Pipeline.Value

noncomputable section

open scoped BigOperators

namespace Cert.GraphNet

open Idealize.ShloMosaic Idealize.ShloMosaic.ValueIdx Cert.KernelIdeal

/-- The first layer's body at (p, q). -/
theorem layerTile0 (x0 x1 : Vec Ideal S10000x64 .f32) (wl wr : Vec Ideal S64x64 .f32) (b : Vec Ideal S1x64 .f32)
    (p : Fin 10000) (q : Fin 64) :
    Gen.k0_pay1 (F := Ideal) x0 x1 wl wr b (ix2 p q) = layerEntry (N := 10000) (K := 64) (M := 64) x0 x1 wl wr b p q := by
  unfold Gen.k0_pay1
  simp only [shapeCast_self]
  rw [maximumf_apply, addf_apply, addf_apply,
    Cert.LibMatmulNN.matmul_zero_apply' (M := 10000) (K := 64) (N := 64) dot_S10000x64_S64x64_S10000x64_1_0_0_1_n_n
      rfl rfl rfl rfl rfl rfl none _ _ p q,
    Cert.LibMatmulNN.matmul_zero_apply' (M := 10000) (K := 64) (N := 64) dot_S10000x64_S64x64_S10000x64_1_0_0_1_n_n
      rfl rfl rfl rfl rfl rfl none _ _ p q,
    broadcastTo_1b_ab_apply (a := 10000) (b := 64) b _ p q]
  show max _ (Ideal.ofBits .f32 0x00000000#32) = _
  rw [Ideal.ofBits_zero_f32]
  rfl

/-- The second layer's body at (p, q). -/
theorem layerTile1 (x0 x1 : Vec Ideal S10000x64 .f32) (wl wr : Vec Ideal S64x64 .f32) (b : Vec Ideal S1x64 .f32)
    (p : Fin 10000) (q : Fin 64) :
    Gen.k1_pay1 (F := Ideal) x0 x1 wl wr b (ix2 p q) = layerEntry (N := 10000) (K := 64) (M := 64) x0 x1 wl wr b p q := by
  unfold Gen.k1_pay1
  simp only [shapeCast_self]
  rw [maximumf_apply, addf_apply, addf_apply,
    Cert.LibMatmulNN.matmul_zero_apply' (M := 10000) (K := 64) (N := 64) dot_S10000x64_S64x64_S10000x64_1_0_0_1_n_n
      rfl rfl rfl rfl rfl rfl none _ _ p q,
    Cert.LibMatmulNN.matmul_zero_apply' (M := 10000) (K := 64) (N := 64) dot_S10000x64_S64x64_S10000x64_1_0_0_1_n_n
      rfl rfl rfl rfl rfl rfl none _ _ p q,
    broadcastTo_1b_ab_apply (a := 10000) (b := 64) b _ p q]
  show max _ (Ideal.ofBits .f32 0x00000000#32) = _
  rw [Ideal.ofBits_zero_f32]
  rfl

/-- The classifier's body at (p, q). -/
theorem scoreTile (g : Vec Ideal S256x64 .f32) (w : Vec Ideal S64x8 .f32) (b : Vec Ideal S1x8 .f32)
    (p : Fin 256) (q : Fin 8) :
    Gen.k2_pay1 (F := Ideal) g w b (ix2 p q) = affineEntry (N := 256) (K := 64) (M := 8) g w b p q := by
  unfold Gen.k2_pay1
  simp only [shapeCast_self]
  rw [addf_apply,
    Cert.LibMatmulNN.matmul_zero_apply' (M := 256) (K := 64) (N := 8) dot_S256x64_S64x8_S256x8_1_0_0_1_n_n
      rfl rfl rfl rfl rfl rfl none _ _ p q,
    broadcastTo_1b_ab_apply (a := 256) (b := 8) b _ p q]
  rfl

end Cert.GraphNet

end
-- ==== Proof.LayerOne.lean ====
/-
  What the first layer's launch leaves in its output array.

  The launch runs the layer body once per block of 10000 consecutive nodes. At block t the body is handed rows
  10000·t … 10000·t + 9999 of the neighbour means and of the nodes' own features, and the whole of the two weight
  matrices and of the bias row; it writes rows 10000·t … of the output. Entry (p, q) of what it writes is the layer's
  entry at node 10000·t + p, which depends on no other block. The ten blocks tile the 100000 rows (the block of row r is
  r / 10000), so after the launch the whole output array is the layer of the arrays the launch was entered with.
-/
import proofs.«163168_j43465069036000_1_alg».proof.Proof.Gen.KernelIdeal.Frame
import proofs.«163168_j43465069036000_1_alg».proof.Proof.Tile
import Idealize.ShloMosaic.Lib.Pipeline.Value

set_option maxRecDepth 16384

noncomputable section

open scoped BigOperators

namespace Cert.GraphNet.LayerOne

open Idealize.ShloMosaic Idealize.ShloMosaic.TcCoe Idealize.ShloMosaic.ValueIdx Idealize.SL.Sem
open Cert.KernelIdeal Cert.KernelIdeal.Gen Cert.GraphNet
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block row t, column block 0; the
    weights and the bias sit at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of what the body writes, against the layer over all nodes: when the body's two row blocks hold, at
    the entry's row, the rows of the whole arrays at node i's row, its weights and bias are the whole arrays, and the
    columns agree, the body's entry is the layer's entry at i. -/
theorem entry_eq (A X : FVec Ideal S100000x64 .f32) (WL WR : FVec Ideal S64x64 .f32) (B : FVec Ideal S1x64 .f32)
    (x0 x1 : Vec Ideal S10000x64 .f32) (wl wr : Vec Ideal S64x64 .f32) (b : Vec Ideal S1x64 .f32)
    (y : S10000x64.Idx) (i : S100000x64.Idx)
    (h0 : ∀ k : Fin 64, x0 (ix2 (y 0) k) = A (ix2 (i 0) k))
    (h1 : ∀ k : Fin 64, x1 (ix2 (y 0) k) = X (ix2 (i 0) k))
    (hwl : wl = WL) (hwr : wr = WR) (hb : b = B) (hq : (y 1).val = (i 1).val) :
    Gen.k0_pay1 (F := Ideal) x0 x1 wl wr b y = layer A X WL WR B i := by
  subst hwl hwr hb
  have hq' : (y 1 : Fin 64) = i 1 := Fin.ext hq
  refine ((congrArg (Gen.k0_pay1 (F := Ideal) x0 x1 wl wr b) (eq_ix2 y)).trans (layerTile0 x0 x1 wl wr b (y 0) (y 1))).trans ?_
  unfold layer layerEntry
  simp only [h0, h1, hq']

set_option maxHeartbeats 2000000 in
/-- What block t writes back is block t of the layer of the arrays the launch was entered with. -/
theorem flushed_eq (c : Dev nD) (t : Fin cfg0.N) :
    (dat0 V c).flushed 5 t = ((cfg0.win 5).blk t).view.read (Elt Ideal)
      (layer (V c (Pipeline.arrRef spec0 0)) (V c (Pipeline.arrRef spec0 1)) (V c (Pipeline.arrRef spec0 2))
        (V c (Pipeline.arrRef spec0 4)) (V c (Pipeline.arrRef spec0 3))) := by
  show (cfg0.win 5).cut (grid0.coords t) ((dat0 V c).after 5 t) = _
  rw [after0_5]
  unfold out0_5
  rw [View.canon_unit_zero origin]
  simp only [View.ld_unit_zero (S := S10000x64) origin, View.ld_unit_zero (S := S64x64) origin,
    View.ld_unit_zero (S := S1x64) origin]
  obtain ⟨e00, e01, e10, e11, e20, e21, e30, e31, e40, e41, e50, e51⟩ := blockIndex t
  funext j
  refine entry_eq (V c (Pipeline.arrRef spec0 0)) (V c (Pipeline.arrRef spec0 1)) (V c (Pipeline.arrRef spec0 2))
    (V c (Pipeline.arrRef spec0 4)) (V c (Pipeline.arrRef spec0 3))
    (iblk0 V c 0 t) (iblk0 V c 1 t) (iblk0 V c 2 t) (iblk0 V c 4 t) (iblk0 V c 3 t) j
    (((cfg0.win 5).blk t).view.emb j) ?_ ?_ ?_ ?_ ?_ ?_
  · intro k
    show V c (Pipeline.arrRef spec0 0) (((cfg0.win 0).blk t).view.emb (ix2 (j 0) k)) = _
    congr 1
    funext a; apply Fin.ext
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  · intro k
    show V c (Pipeline.arrRef spec0 1) (((cfg0.win 1).blk t).view.emb (ix2 (j 0) k)) = _
    congr 1
    funext a; apply Fin.ext
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 64 + 1 * k.val = k.val; omega
  · funext y
    show V c (Pipeline.arrRef spec0 2) (((cfg0.win 2).blk t).view.emb y) = V c (Pipeline.arrRef spec0 2) y
    congr 1
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c (Pipeline.arrRef spec0 4) (((cfg0.win 4).blk t).view.emb y) = V c (Pipeline.arrRef spec0 4) y
    congr 1
    funext a; apply Fin.ext
    match a with
    | ⟨0, _⟩ => show win0_4.index t (0 : Fin 2) * 64 + 1 * (y 0).val = (y 0).val; omega
    | ⟨1, _⟩ => show win0_4.index t (1 : Fin 2) * 64 + 1 * (y 1).val = (y 1).val; omega
  · funext y
    show V c (Pipeline.arrRef spec0 3) (((cfg0.win 3).blk t).view.emb y) = V c (Pipeline.arrRef spec0 3) y
    congr 1
    funext a; apply Fin.ext
    match a with
    | ⟨0, _⟩ => show win0_3.index t (0 : Fin 2) * 1 + 1 * (y 0).val = (y 0).val; omega
    | ⟨1, _⟩ => show win0_3.index t (1 : Fin 2) * 64 + 1 * (y 1).val = (y 1).val; omega
  · show (j 1).val = win0_5.index t (1 : Fin 2) * 64 + 1 * (j 1).val
    omega

/-- An index of the output array is in block t iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v31).slice (win0_5.rect t)).set ↔ _
  rw [View.set_slice_whole, Rect.mem_set_unit]
  exact Iff.rfl

/-- Every row is in the block numbered by its quotient by 10000. -/
theorem covered (i : S100000x64.Idx) :
    ∃ t : Fin cfg0.N, (cfg0.win 5).flush t = true ∧ i ∈ ((cfg0.win 5).blk t).view.set := by
  have hN : grid0.N = 10 := N_0
  have hi0 : (i 0).val < 100000 := (i 0).isLt
  have hi1 : (i 1).val < 64 := (i 1).isLt
  let t : Fin cfg0.N := ⟨(i 0).val / 10000, by show (i 0).val / 10000 < grid0.N; rw [hN]; omega⟩
  obtain ⟨e00, e01, e10, e11, e20, e21, e30, e31, e40, e41, e50, e51⟩ := blockIndex t
  have ht : t.val = (i 0).val / 10000 := rfl
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after the launch is the layer of the arrays the launch was entered with. -/
theorem array_eq (c : Dev nD) :
    (dat0 V c).arrAt 5 cfg0.N
      = layer (V c (Pipeline.arrRef spec0 0)) (V c (Pipeline.arrRef spec0 1)) (V c (Pipeline.arrRef spec0 2))
          (V c (Pipeline.arrRef spec0 4)) (V c (Pipeline.arrRef spec0 3)) :=
  (dat0 V c).arrAt_eq_of_cover 5 _ (fun t _ => flushed_eq V c t) covered

end Cert.GraphNet.LayerOne

end
-- ==== Proof.LayerTwo.lean ====
/-
  What the second layer's launch leaves in its output array.

  The launch runs the layer body once per block of 10000 consecutive nodes. At block t the body is handed rows
  10000·t … 10000·t + 9999 of the neighbour means and of the nodes' own features, and the whole of the two weight
  matrices and of the bias row; it writes rows 10000·t … of the output. Entry (p, q) of what it writes is the layer's
  entry at node 10000·t + p, which depends on no other block. The ten blocks tile the 100000 rows (the block of row r is
  r / 10000), so after the launch the whole output array is the layer of the arrays the launch was entered with.
-/
import proofs.«163168_j43465069036000_1_alg».proof.Proof.Gen.KernelIdeal.Frame
import proofs.«163168_j43465069036000_1_alg».proof.Proof.Tile
import Idealize.ShloMosaic.Lib.Pipeline.Value

set_option maxRecDepth 16384

noncomputable section

open scoped BigOperators

namespace Cert.GraphNet.LayerTwo

open Idealize.ShloMosaic Idealize.ShloMosaic.TcCoe Idealize.ShloMosaic.ValueIdx Idealize.SL.Sem
open Cert.KernelIdeal Cert.KernelIdeal.Gen Cert.GraphNet
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block row t, column block 0; the
    weights and the bias sit at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of what the body writes, against the layer over all nodes: when the body's two row blocks hold, at
    the entry's row, the rows of the whole arrays at node i's row, its weights and bias are the whole arrays, and the
    columns agree, the body's entry is the layer's entry at i. -/
theorem entry_eq (A X : FVec Ideal S100000x64 .f32) (WL WR : FVec Ideal S64x64 .f32) (B : FVec Ideal S1x64 .f32)
    (x0 x1 : Vec Ideal S10000x64 .f32) (wl wr : Vec Ideal S64x64 .f32) (b : Vec Ideal S1x64 .f32)
    (y : S10000x64.Idx) (i : S100000x64.Idx)
    (h0 : ∀ k : Fin 64, x0 (ix2 (y 0) k) = A (ix2 (i 0) k))
    (h1 : ∀ k : Fin 64, x1 (ix2 (y 0) k) = X (ix2 (i 0) k))
    (hwl : wl = WL) (hwr : wr = WR) (hb : b = B) (hq : (y 1).val = (i 1).val) :
    Gen.k1_pay1 (F := Ideal) x0 x1 wl wr b y = layer A X WL WR B i := by
  subst hwl hwr hb
  have hq' : (y 1 : Fin 64) = i 1 := Fin.ext hq
  refine ((congrArg (Gen.k1_pay1 (F := Ideal) x0 x1 wl wr b) (eq_ix2 y)).trans (layerTile1 x0 x1 wl wr b (y 0) (y 1))).trans ?_
  unfold layer layerEntry
  simp only [h0, h1, hq']

set_option maxHeartbeats 2000000 in
/-- What block t writes back is block t of the layer of the arrays the launch was entered with. -/
theorem flushed_eq (c : Dev nD) (t : Fin cfg1.N) :
    (dat1 V c).flushed 5 t = ((cfg1.win 5).blk t).view.read (Elt Ideal)
      (layer (V c (Pipeline.arrRef spec1 0)) (V c (Pipeline.arrRef spec1 1)) (V c (Pipeline.arrRef spec1 2))
        (V c (Pipeline.arrRef spec1 4)) (V c (Pipeline.arrRef spec1 3))) := by
  show (cfg1.win 5).cut (grid1.coords t) ((dat1 V c).after 5 t) = _
  rw [after1_5]
  unfold out1_5
  rw [View.canon_unit_zero origin]
  simp only [View.ld_unit_zero (S := S10000x64) origin, View.ld_unit_zero (S := S64x64) origin,
    View.ld_unit_zero (S := S1x64) origin]
  obtain ⟨e00, e01, e10, e11, e20, e21, e30, e31, e40, e41, e50, e51⟩ := blockIndex t
  funext j
  refine entry_eq (V c (Pipeline.arrRef spec1 0)) (V c (Pipeline.arrRef spec1 1)) (V c (Pipeline.arrRef spec1 2))
    (V c (Pipeline.arrRef spec1 4)) (V c (Pipeline.arrRef spec1 3))
    (iblk1 V c 0 t) (iblk1 V c 1 t) (iblk1 V c 2 t) (iblk1 V c 4 t) (iblk1 V c 3 t) j
    (((cfg1.win 5).blk t).view.emb j) ?_ ?_ ?_ ?_ ?_ ?_
  · intro k
    show V c (Pipeline.arrRef spec1 0) (((cfg1.win 0).blk t).view.emb (ix2 (j 0) k)) = _
    congr 1
    funext a; apply Fin.ext
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · intro k
    show V c (Pipeline.arrRef spec1 1) (((cfg1.win 1).blk t).view.emb (ix2 (j 0) k)) = _
    congr 1
    funext a; apply Fin.ext
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  · funext y
    show V c (Pipeline.arrRef spec1 2) (((cfg1.win 2).blk t).view.emb y) = V c (Pipeline.arrRef spec1 2) y
    congr 1
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c (Pipeline.arrRef spec1 4) (((cfg1.win 4).blk t).view.emb y) = V c (Pipeline.arrRef spec1 4) y
    congr 1
    funext a; apply Fin.ext
    match a with
    | ⟨0, _⟩ => show win1_4.index t (0 : Fin 2) * 64 + 1 * (y 0).val = (y 0).val; omega
    | ⟨1, _⟩ => show win1_4.index t (1 : Fin 2) * 64 + 1 * (y 1).val = (y 1).val; omega
  · funext y
    show V c (Pipeline.arrRef spec1 3) (((cfg1.win 3).blk t).view.emb y) = V c (Pipeline.arrRef spec1 3) y
    congr 1
    funext a; apply Fin.ext
    match a with
    | ⟨0, _⟩ => show win1_3.index t (0 : Fin 2) * 1 + 1 * (y 0).val = (y 0).val; omega
    | ⟨1, _⟩ => show win1_3.index t (1 : Fin 2) * 64 + 1 * (y 1).val = (y 1).val; omega
  · show (j 1).val = win1_5.index t (1 : Fin 2) * 64 + 1 * (j 1).val
    omega

/-- An index of the output array is in block t iff each coordinate is in the block's range on its axis. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v51).slice (win1_5.rect t)).set ↔ _
  rw [View.set_slice_whole, Rect.mem_set_unit]
  exact Iff.rfl

/-- Every row is in the block numbered by its quotient by 10000. -/
theorem covered (i : S100000x64.Idx) :
    ∃ t : Fin cfg1.N, (cfg1.win 5).flush t = true ∧ i ∈ ((cfg1.win 5).blk t).view.set := by
  have hN : grid1.N = 10 := N_1
  have hi0 : (i 0).val < 100000 := (i 0).isLt
  have hi1 : (i 1).val < 64 := (i 1).isLt
  let t : Fin cfg1.N := ⟨(i 0).val / 10000, by show (i 0).val / 10000 < grid1.N; rw [hN]; omega⟩
  obtain ⟨e00, e01, e10, e11, e20, e21, e30, e31, e40, e41, e50, e51⟩ := blockIndex t
  have ht : t.val = (i 0).val / 10000 := rfl
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the launch is the layer of the arrays the launch was entered with. -/
theorem array_eq (c : Dev nD) :
    (dat1 V c).arrAt 5 cfg1.N
      = layer (V c (Pipeline.arrRef spec1 0)) (V c (Pipeline.arrRef spec1 1)) (V c (Pipeline.arrRef spec1 2))
          (V c (Pipeline.arrRef spec1 4)) (V c (Pipeline.arrRef spec1 3)) :=
  (dat1 V c).arrAt_eq_of_cover 5 _ (fun t _ => flushed_eq V c t) covered

end Cert.GraphNet.LayerTwo

end
-- ==== Proof.Classifier.lean ====
/-
  What the classifier's launch leaves in its output array.

  The launch has one grid point: the body is handed the whole 256 × 64 array of graph means, the whole 64 × 8
  weight matrix and the one-row bias, and writes the whole 256 × 8 output. Entry (p, q) of what it writes is the affine
  entry Σ_k g(p,k)·w(k,q) + b(0,q), and the one block covers the array, so after the launch the output array is the
  scores of the arrays the launch was entered with.
-/
import proofs.«163168_j43465069036000_1_alg».proof.Proof.Gen.KernelIdeal.Frame
import proofs.«163168_j43465069036000_1_alg».proof.Proof.Tile
import Idealize.ShloMosaic.Lib.Pipeline.Value

set_option maxRecDepth 16384

noncomputable section

open scoped BigOperators

namespace Cert.GraphNet.Classifier

open Idealize.ShloMosaic Idealize.ShloMosaic.TcCoe Idealize.ShloMosaic.ValueIdx Idealize.SL.Sem
open Cert.KernelIdeal Cert.KernelIdeal.Gen Cert.GraphNet
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the one-point grid: every window sits at block (0, 0). -/
theorem blockIndex : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- One entry of what the body writes, against the scores over all graphs. -/
theorem entry_eq (G : FVec Ideal S256x64 .f32) (Wc : FVec Ideal S64x8 .f32) (B : FVec Ideal S1x8 .f32)
    (g : Vec Ideal S256x64 .f32) (w : Vec Ideal S64x8 .f32) (b : Vec Ideal S1x8 .f32)
    (y : S256x8.Idx) (i : S256x8.Idx)
    (hg : g = G) (hw : w = Wc) (hb : b = B) (hi : y = i) :
    Gen.k2_pay1 (F := Ideal) g w b y = scores G Wc B i := by
  subst hg hw hb hi
  exact (congrArg (Gen.k2_pay1 (F := Ideal) g w b) (eq_ix2 y)).trans (scoreTile g w b (y 0) (y 1))

/-- What the one point writes back is the scores of the arrays the launch was entered with. -/
theorem flushed_eq (c : Dev nD) (t : Fin cfg2.N) :
    (dat2 V c).flushed 3 t = ((cfg2.win 3).blk t).view.read (Elt Ideal)
      (scores (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero origin]
  simp only [View.ld_unit_zero (S := S256x64) origin, View.ld_unit_zero (S := S64x8) origin,
    View.ld_unit_zero (S := S1x8) origin]
  obtain ⟨e00, e01, e10, e11, e20, e21, e30, e31⟩ := blockIndex t
  funext j
  refine entry_eq (V c (Pipeline.arrRef spec2 0)) (V c (Pipeline.arrRef spec2 1)) (V c (Pipeline.arrRef spec2 2))
    (iblk2 V c 0 t) (iblk2 V c 1 t) (iblk2 V c 2 t) j (((cfg2.win 3).blk t).view.emb j) ?_ ?_ ?_ ?_
  · funext y
    show V c (Pipeline.arrRef spec2 0) (((cfg2.win 0).blk t).view.emb y) = V c (Pipeline.arrRef spec2 0) y
    congr 1
    funext a; apply Fin.ext
    match a with
    | ⟨0, _⟩ => show win2_0.index t (0 : Fin 2) * 256 + 1 * (y 0).val = (y 0).val; omega
    | ⟨1, _⟩ => show win2_0.index t (1 : Fin 2) * 64 + 1 * (y 1).val = (y 1).val; omega
  · funext y
    show V c (Pipeline.arrRef spec2 1) (((cfg2.win 1).blk t).view.emb y) = V c (Pipeline.arrRef spec2 1) y
    congr 1
    funext a; apply Fin.ext
    match a with
    | ⟨0, _⟩ => show win2_1.index t (0 : Fin 2) * 64 + 1 * (y 0).val = (y 0).val; omega
    | ⟨1, _⟩ => show win2_1.index t (1 : Fin 2) * 8 + 1 * (y 1).val = (y 1).val; omega
  · funext y
    show V c (Pipeline.arrRef spec2 2) (((cfg2.win 2).blk t).view.emb y) = V c (Pipeline.arrRef spec2 2) y
    congr 1
    funext a; apply Fin.ext
    match a with
    | ⟨0, _⟩ => show win2_2.index t (0 : Fin 2) * 1 + 1 * (y 0).val = (y 0).val; omega
    | ⟨1, _⟩ => show win2_2.index t (1 : Fin 2) * 8 + 1 * (y 1).val = (y 1).val; omega
  · funext a; apply Fin.ext
    match a with
    | ⟨0, _⟩ => show (j 0).val = win2_3.index t (0 : Fin 2) * 256 + 1 * (j 0).val; omega
    | ⟨1, _⟩ => show (j 1).val = win2_3.index t (1 : Fin 2) * 8 + 1 * (j 1).val; omega

/-- An index of the output array is in the point's block iff each coordinate is in the block's range on its axis. -/
theorem mem_block (t : Fin cfg2.N) (i : S256x8.Idx) :
    i ∈ ((cfg2.win 3).blk t).view.set ↔ ∀ a : Fin 2, win2_3.index t a * S256x8.size a ≤ (i a).val ∧ (i a).val < win2_3.index t a * S256x8.size a + S256x8.size a := by
  show i ∈ ((View.whole main_v64).slice (win2_3.rect t)).set ↔ _
  rw [View.set_slice_whole, Rect.mem_set_unit]
  exact Iff.rfl

/-- The one block covers the array. -/
theorem covered (i : S256x8.Idx) :
    ∃ t : Fin cfg2.N, (cfg2.win 3).flush t = true ∧ i ∈ ((cfg2.win 3).blk t).view.set := by
  have hi0 : (i 0).val < 256 := (i 0).isLt
  have hi1 : (i 1).val < 8 := (i 1).isLt
  obtain ⟨e00, e01, e10, e11, e20, e21, e30, e31⟩ := blockIndex t2_0
  refine ⟨t2_0, flush2_3 t2_0, ?_⟩
  rw [mem_block]
  intro a
  match a with
  | ⟨0, _⟩ => show win2_3.index t2_0 (0 : Fin 2) * 256 ≤ (i 0).val ∧ (i 0).val < win2_3.index t2_0 (0 : Fin 2) * 256 + 256; omega
  | ⟨1, _⟩ => show win2_3.index t2_0 (1 : Fin 2) * 8 ≤ (i 1).val ∧ (i 1).val < win2_3.index t2_0 (1 : Fin 2) * 8 + 8; omega

/-- The output array after the launch is the scores of the arrays the launch was entered with. -/
theorem array_eq (c : Dev nD) :
    (dat2 V c).arrAt 3 cfg2.N
      = scores (V c (Pipeline.arrRef spec2 0)) (V c (Pipeline.arrRef spec2 1)) (V c (Pipeline.arrRef spec2 2)) :=
  (dat2 V c).arrAt_eq_of_cover 3 _ (fun t _ => flushed_eq V c t) covered

end Cert.GraphNet.Classifier

end
-- ==== Proof.HostStretch.lean ====
/-
  The host operations between the kernel launches, read back as mathematics.

  The program's entry function is three stretches of array operations with a kernel launch after each. This module
  states what each stretch leaves in the buffers that later code reads, starting from ARBITRARY buffer contents W:

  * the first stretch splits the edge list into its source and target vectors, transposes the weight matrices,
    turns each bias vector into a one-row matrix, and forms the mean of the neighbours' rows of the input features;
  * the second stretch forms the mean of the neighbours' rows of the first layer's output;
  * the third stretch forms the mean of the second layer's rows per graph.

  Each result is the named function of the network's specification (sources, targets, neighbourMean, graphMean)
  applied to W's buffers: the stretch applies, one after the other, exactly the array operations that function is
  made of, so composing the operations' results gives the function's term itself. A buffer that no operation of a
  stretch writes holds afterwards what W held there.
-/
import proofs.«163168_j43465069036000_1_alg».proof.Proof.Gen.KernelIdeal.Launch
import proofs.«163168_j43465069036000_1_alg».proof.Proof.Spec
import Idealize.ShloMosaic.Lib.StableHlo.Run

noncomputable section

namespace Cert.GraphNet.Stretch

open Idealize.ShloMosaic Idealize.ShloMosaic.TcCoe Idealize.SL.Sem Idealize.ShloMosaic.StableHlo Cert.KernelIdeal Cert.KernelIdeal.Gen Cert.GraphNet

variable (W : Valuation τ sig (Elt Ideal))

/-! ## The first stretch -/

/-- After the first stretch, buffer v30 holds the neighbour mean of the input rows (arg0) along the edges of the edge
    list (arg1): sources from its row 0, targets from its row 1. -/
theorem first_v30 :
    after (hostOps0 (F := Ideal)) W (Proc.devRef .tc main_v30)
      = neighbourMean (W (Proc.devRef .tc main_arg0)) (sources (W (Proc.devRef .tc main_arg1))) (targets (W (Proc.devRef .tc main_arg1))) := by
  after_results_simp <;> rfl

/-- After the first stretch, buffer v1 holds the edges' source nodes: row 0 of the edge list (arg1) as a vector. -/
theorem first_v1 :
    after (hostOps0 (F := Ideal)) W (Proc.devRef .tc main_v1)
      = sources (W (Proc.devRef .tc main_arg1)) := by
  after_results_simp <;> rfl

/-- After the first stretch, buffer v3 holds the edges' target nodes: row 1 of the edge list (arg1) as a vector. -/
theorem first_v3 :
    after (hostOps0 (F := Ideal)) W (Proc.devRef .tc main_v3)
      = targets (W (Proc.devRef .tc main_arg1)) := by
  after_results_simp <;> rfl

/-- After the first stretch, buffer v4 holds the transpose of the 64 × 64 weight matrix arg3. -/
theorem first_v4 :
    after (hostOps0 (F := Ideal)) W (Proc.devRef .tc main_v4)
      = transpose S64x64 [1, 0] (W (Proc.devRef .tc main_arg3)) Facts₀.transposes_S64x64_S64x64_1_0 := by
  after_results_simp <;> rfl

/-- After the first stretch, buffer v5 holds the transpose of the 64 × 64 weight matrix arg5. -/
theorem first_v5 :
    after (hostOps0 (F := Ideal)) W (Proc.devRef .tc main_v5)
      = transpose S64x64 [1, 0] (W (Proc.devRef .tc main_arg5)) Facts₀.transposes_S64x64_S64x64_1_0 := by
  after_results_simp <;> rfl

/-- After the first stretch, buffer v6 holds the transpose of the 64 × 64 weight matrix arg6. -/
theorem first_v6 :
    after (hostOps0 (F := Ideal)) W (Proc.devRef .tc main_v6)
      = transpose S64x64 [1, 0] (W (Proc.devRef .tc main_arg6)) Facts₀.transposes_S64x64_S64x64_1_0 := by
  after_results_simp <;> rfl

/-- After the first stretch, buffer v7 holds the transpose of the 64 × 64 weight matrix arg8. -/
theorem first_v7 :
    after (hostOps0 (F := Ideal)) W (Proc.devRef .tc main_v7)
      = transpose S64x64 [1, 0] (W (Proc.devRef .tc main_arg8)) Facts₀.transposes_S64x64_S64x64_1_0 := by
  after_results_simp <;> rfl

/-- After the first stretch, buffer v8 holds the transpose of the 8 × 64 score weight matrix arg9, a 64 × 8 matrix. -/
theorem first_v8 :
    after (hostOps0 (F := Ideal)) W (Proc.devRef .tc main_v8)
      = transpose S64x8 [1, 0] (W (Proc.devRef .tc main_arg9)) Facts₀.transposes_S8x64_S64x8_1_0 := by
  after_results_simp <;> rfl

/-- After the first stretch, buffer v9 holds the 64-entry bias vector arg4 as a one-row matrix. -/
theorem first_v9 :
    after (hostOps0 (F := Ideal)) W (Proc.devRef .tc main_v9)
      = shapeCast S1x64 (W (Proc.devRef .tc main_arg4)) Facts₀.shapeCasts_S64_S1x64 := by
  after_results_simp <;> rfl

/-- After the first stretch, buffer v10 holds the 64-entry bias vector arg7 as a one-row matrix. -/
theorem first_v10 :
    after (hostOps0 (F := Ideal)) W (Proc.devRef .tc main_v10)
      = shapeCast S1x64 (W (Proc.devRef .tc main_arg7)) Facts₀.shapeCasts_S64_S1x64 := by
  after_results_simp <;> rfl

/-- After the first stretch, buffer v11 holds the 8-entry score bias vector arg10 as a one-row matrix. -/
theorem first_v11 :
    after (hostOps0 (F := Ideal)) W (Proc.devRef .tc main_v11)
      = shapeCast S1x8 (W (Proc.devRef .tc main_arg10)) Facts₀.shapeCasts_S8_S1x8 := by
  after_results_simp <;> rfl

/-- The first stretch leaves the input rows (arg0) as they were. -/
theorem first_keep_arg0 :
    after (hostOps0 (F := Ideal)) W (Proc.devRef .tc main_arg0) = W (Proc.devRef .tc main_arg0) := by
  after_results_simp <;> rfl

/-- The first stretch leaves the graph labels (arg2) as they were. -/
theorem first_keep_arg2 :
    after (hostOps0 (F := Ideal)) W (Proc.devRef .tc main_arg2) = W (Proc.devRef .tc main_arg2) := by
  after_results_simp <;> rfl

/-! ## The second stretch -/

/-- After the second stretch, buffer v50 holds the neighbour mean of the rows in v31 along the edges whose sources are
    in v1 and whose targets are in v3. -/
theorem second_v50 :
    after (hostOps1 (F := Ideal)) W (Proc.devRef .tc main_v50)
      = neighbourMean (W (Proc.devRef .tc main_v31)) (W (Proc.devRef .tc main_v1)) (W (Proc.devRef .tc main_v3)) := by
  after_results_simp <;> rfl

/-- The second stretch leaves buffer v31 as it was. -/
theorem second_keep_v31 :
    after (hostOps1 (F := Ideal)) W (Proc.devRef .tc main_v31) = W (Proc.devRef .tc main_v31) := by
  after_results_simp <;> rfl

/-- The second stretch leaves buffer v6 as it was. -/
theorem second_keep_v6 :
    after (hostOps1 (F := Ideal)) W (Proc.devRef .tc main_v6) = W (Proc.devRef .tc main_v6) := by
  after_results_simp <;> rfl

/-- The second stretch leaves buffer v10 as it was. -/
theorem second_keep_v10 :
    after (hostOps1 (F := Ideal)) W (Proc.devRef .tc main_v10) = W (Proc.devRef .tc main_v10) := by
  after_results_simp <;> rfl

/-- The second stretch leaves buffer v7 as it was. -/
theorem second_keep_v7 :
    after (hostOps1 (F := Ideal)) W (Proc.devRef .tc main_v7) = W (Proc.devRef .tc main_v7) := by
  after_results_simp <;> rfl

/-- The second stretch leaves buffer v8 as it was. -/
theorem second_keep_v8 :
    after (hostOps1 (F := Ideal)) W (Proc.devRef .tc main_v8) = W (Proc.devRef .tc main_v8) := by
  after_results_simp <;> rfl

/-- The second stretch leaves buffer v11 as it was. -/
theorem second_keep_v11 :
    after (hostOps1 (F := Ideal)) W (Proc.devRef .tc main_v11) = W (Proc.devRef .tc main_v11) := by
  after_results_simp <;> rfl

/-- The second stretch leaves buffer arg2 as it was. -/
theorem second_keep_arg2 :
    after (hostOps1 (F := Ideal)) W (Proc.devRef .tc main_arg2) = W (Proc.devRef .tc main_arg2) := by
  after_results_simp <;> rfl

/-! ## The third stretch -/

/-- After the third stretch, buffer v63 holds the per-graph mean of the rows in v51, grouped by the labels in arg2. -/
theorem third_v63 :
    after (hostOps2 (F := Ideal)) W (Proc.devRef .tc main_v63)
      = graphMean (W (Proc.devRef .tc main_v51)) (W (Proc.devRef .tc main_arg2)) := by
  after_results_simp <;> rfl

/-- The third stretch leaves buffer v8 as it was. -/
theorem third_keep_v8 :
    after (hostOps2 (F := Ideal)) W (Proc.devRef .tc main_v8) = W (Proc.devRef .tc main_v8) := by
  after_results_simp <;> rfl

/-- The third stretch leaves buffer v11 as it was. -/
theorem third_keep_v11 :
    after (hostOps2 (F := Ideal)) W (Proc.devRef .tc main_v11) = W (Proc.devRef .tc main_v11) := by
  after_results_simp <;> rfl

end Cert.GraphNet.Stretch

end
-- ==== Proof.Network.lean ====
/-
  The whole network as one function of the eleven argument arrays.

  A convolution step takes the node features h to the layer of (the neighbours' mean of h, h itself) under the
  transposed weight matrices and the bias recast as a row. The network applies two steps, averages the rows per
  graph, and applies the final affine map under the transposed classifier weights and the bias recast as a row.
-/
import proofs.«163168_j43465069036000_1_alg».proof.Proof.Spec

noncomputable section

namespace Cert.GraphNet

open Idealize.ShloMosaic Idealize.ShloMosaic.ValueIdx Cert.KernelIdeal Cert.KernelIdeal.Facts₀

/-- One convolution step over the whole graph. -/
def conv (ei : IVec S2x1200000 32) (wl : FVec Ideal S64x64 .f32) (bl : FVec Ideal S64 .f32) (wr : FVec Ideal S64x64 .f32)
    (h : FVec Ideal S100000x64 .f32) : FVec Ideal S100000x64 .f32 :=
  layer (neighbourMean h (sources ei) (targets ei)) h
    (transpose S64x64 [1, 0] wl transposes_S64x64_S64x64_1_0) (transpose S64x64 [1, 0] wr transposes_S64x64_S64x64_1_0)
    (shapeCast S1x64 bl shapeCasts_S64_S1x64)

/-- Two convolution steps, the mean per graph, the affine map to 8 scores. -/
def network (x : FVec Ideal S100000x64 .f32) (ei : IVec S2x1200000 32) (batch : IVec S100000 32)
    (w1l : FVec Ideal S64x64 .f32) (b1l : FVec Ideal S64 .f32) (w1r : FVec Ideal S64x64 .f32)
    (w2l : FVec Ideal S64x64 .f32) (b2l : FVec Ideal S64 .f32) (w2r : FVec Ideal S64x64 .f32)
    (wc : FVec Ideal S8x64 .f32) (bc : FVec Ideal S8 .f32) : FVec Ideal S256x8 .f32 :=
  scores (graphMean (conv ei w2l b2l w2r (conv ei w1l b1l w1r x)) batch)
    (transpose S64x8 [1, 0] wc transposes_S8x64_S64x8_1_0) (shapeCast S1x8 bc shapeCasts_S8_S1x8)

end Cert.GraphNet

end
-- ==== Proof.Fold.lean ====
/-
  The idealized kernel program computes the network.

  The program's buffers are followed from the launch to the return through six boundaries: after the first stretch of
  array operations, after the first layer's launch, after the second stretch, after the second layer's launch, after
  the third stretch, after the classifier's launch. Each stretch leaves the named sparse functions of what it found and
  keeps what it does not write; each launch leaves its output array at the layer (or the scores) of what it found and
  keeps every other buffer. Substituting boundary into boundary, the result array is the network of the launch contents
  of the eleven arguments.
-/
import proofs.«163168_j43465069036000_1_alg».proof.Proof.Gen.KernelIdeal.Frame
import proofs.«163168_j43465069036000_1_alg».proof.Proof.LayerOne
import proofs.«163168_j43465069036000_1_alg».proof.Proof.LayerTwo
import proofs.«163168_j43465069036000_1_alg».proof.Proof.Classifier
import proofs.«163168_j43465069036000_1_alg».proof.Proof.HostStretch
import proofs.«163168_j43465069036000_1_alg».proof.Proof.Network

set_option maxRecDepth 16384

noncomputable section

namespace Cert.GraphNet

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

set_option maxHeartbeats 2000000 in
/-- The result array at the last boundary is the network of the arguments' launch contents. -/
theorem fold_eq (c : Dev nD) :
    W6 m ρ c (Proc.devRef .tc main_v64)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) := by
  -- the classifier's launch, entered from the fifth boundary
  have e6 : W6 m ρ c (Proc.devRef .tc main_v64)
      = scores (W5 m ρ c (Proc.devRef .tc main_v63)) (W5 m ρ c (Proc.devRef .tc main_v8)) (W5 m ρ c (Proc.devRef .tc main_v11)) :=
    (W6_arr m ρ c 3).trans (Classifier.array_eq (V5 m ρ) c)
  -- the third stretch, entered from the fourth boundary
  have a63 : W5 m ρ c (Proc.devRef .tc main_v63) = graphMean (W4 m ρ c (Proc.devRef .tc main_v51)) (W4 m ρ c (Proc.devRef .tc main_arg2)) := Stretch.third_v63 (W4 m ρ c)
  have a8 : W5 m ρ c (Proc.devRef .tc main_v8) = W4 m ρ c (Proc.devRef .tc main_v8) := Stretch.third_keep_v8 (W4 m ρ c)
  have a11 : W5 m ρ c (Proc.devRef .tc main_v11) = W4 m ρ c (Proc.devRef .tc main_v11) := Stretch.third_keep_v11 (W4 m ρ c)
  -- the second layer's launch, entered from the third boundary
  have b51 : W4 m ρ c (Proc.devRef .tc main_v51)
      = layer (W3 m ρ c (Proc.devRef .tc main_v50)) (W3 m ρ c (Proc.devRef .tc main_v31)) (W3 m ρ c (Proc.devRef .tc main_v6)) (W3 m ρ c (Proc.devRef .tc main_v7)) (W3 m ρ c (Proc.devRef .tc main_v10)) :=
    (W4_arr m ρ c 5).trans (LayerTwo.array_eq (V3 m ρ) c)
  have b2 : W4 m ρ c (Proc.devRef .tc main_arg2) = W3 m ρ c (Proc.devRef .tc main_arg2) := W4_of_ne m ρ c main_arg2 (by decide)
  have b8 : W4 m ρ c (Proc.devRef .tc main_v8) = W3 m ρ c (Proc.devRef .tc main_v8) := W4_of_ne m ρ c main_v8 (by decide)
  have b11 : W4 m ρ c (Proc.devRef .tc main_v11) = W3 m ρ c (Proc.devRef .tc main_v11) := W4_of_ne m ρ c main_v11 (by decide)
  -- the second stretch, entered from the second boundary
  have c50 : W3 m ρ c (Proc.devRef .tc main_v50) = neighbourMean (W2 m ρ c (Proc.devRef .tc main_v31)) (W2 m ρ c (Proc.devRef .tc main_v1)) (W2 m ρ c (Proc.devRef .tc main_v3)) := Stretch.second_v50 (W2 m ρ c)
  have c31 : W3 m ρ c (Proc.devRef .tc main_v31) = W2 m ρ c (Proc.devRef .tc main_v31) := Stretch.second_keep_v31 (W2 m ρ c)
  have c6 : W3 m ρ c (Proc.devRef .tc main_v6) = W2 m ρ c (Proc.devRef .tc main_v6) := Stretch.second_keep_v6 (W2 m ρ c)
  have c7 : W3 m ρ c (Proc.devRef .tc main_v7) = W2 m ρ c (Proc.devRef .tc main_v7) := Stretch.second_keep_v7 (W2 m ρ c)
  have c10 : W3 m ρ c (Proc.devRef .tc main_v10) = W2 m ρ c (Proc.devRef .tc main_v10) := Stretch.second_keep_v10 (W2 m ρ c)
  have c8 : W3 m ρ c (Proc.devRef .tc main_v8) = W2 m ρ c (Proc.devRef .tc main_v8) := Stretch.second_keep_v8 (W2 m ρ c)
  have c11 : W3 m ρ c (Proc.devRef .tc main_v11) = W2 m ρ c (Proc.devRef .tc main_v11) := Stretch.second_keep_v11 (W2 m ρ c)
  have c2 : W3 m ρ c (Proc.devRef .tc main_arg2) = W2 m ρ c (Proc.devRef .tc main_arg2) := Stretch.second_keep_arg2 (W2 m ρ c)
  -- the first layer's launch, entered from the first boundary
  have d31 : W2 m ρ c (Proc.devRef .tc main_v31)
      = layer (W1 m ρ c (Proc.devRef .tc main_v30)) (W1 m ρ c (Proc.devRef .tc main_arg0)) (W1 m ρ c (Proc.devRef .tc main_v4)) (W1 m ρ c (Proc.devRef .tc main_v5)) (W1 m ρ c (Proc.devRef .tc main_v9)) :=
    (W2_arr m ρ c 5).trans (LayerOne.array_eq (V1 m ρ) c)
  have d1 : W2 m ρ c (Proc.devRef .tc main_v1) = W1 m ρ c (Proc.devRef .tc main_v1) := W2_of_ne m ρ c main_v1 (by decide)
  have d3 : W2 m ρ c (Proc.devRef .tc main_v3) = W1 m ρ c (Proc.devRef .tc main_v3) := W2_of_ne m ρ c main_v3 (by decide)
  have d6 : W2 m ρ c (Proc.devRef .tc main_v6) = W1 m ρ c (Proc.devRef .tc main_v6) := W2_of_ne m ρ c main_v6 (by decide)
  have d7 : W2 m ρ c (Proc.devRef .tc main_v7) = W1 m ρ c (Proc.devRef .tc main_v7) := W2_of_ne m ρ c main_v7 (by decide)
  have d10 : W2 m ρ c (Proc.devRef .tc main_v10) = W1 m ρ c (Proc.devRef .tc main_v10) := W2_of_ne m ρ c main_v10 (by decide)
  have d8 : W2 m ρ c (Proc.devRef .tc main_v8) = W1 m ρ c (Proc.devRef .tc main_v8) := W2_of_ne m ρ c main_v8 (by decide)
  have d11 : W2 m ρ c (Proc.devRef .tc main_v11) = W1 m ρ c (Proc.devRef .tc main_v11) := W2_of_ne m ρ c main_v11 (by decide)
  have d2 : W2 m ρ c (Proc.devRef .tc main_arg2) = W1 m ρ c (Proc.devRef .tc main_arg2) := W2_of_ne m ρ c main_arg2 (by decide)
  -- the first stretch, entered from the launch memory
  have f30 : W1 m ρ c (Proc.devRef .tc main_v30)
      = neighbourMean (W0 m ρ c (Proc.devRef .tc main_arg0)) (sources (W0 m ρ c (Proc.devRef .tc main_arg1))) (targets (W0 m ρ c (Proc.devRef .tc main_arg1))) := Stretch.first_v30 (W0 m ρ c)
  have f0 : W1 m ρ c (Proc.devRef .tc main_arg0) = W0 m ρ c (Proc.devRef .tc main_arg0) := Stretch.first_keep_arg0 (W0 m ρ c)
  have f2 : W1 m ρ c (Proc.devRef .tc main_arg2) = W0 m ρ c (Proc.devRef .tc main_arg2) := Stretch.first_keep_arg2 (W0 m ρ c)
  have f1 : W1 m ρ c (Proc.devRef .tc main_v1) = sources (W0 m ρ c (Proc.devRef .tc main_arg1)) := Stretch.first_v1 (W0 m ρ c)
  have f3 : W1 m ρ c (Proc.devRef .tc main_v3) = targets (W0 m ρ c (Proc.devRef .tc main_arg1)) := Stretch.first_v3 (W0 m ρ c)
  have f4 : W1 m ρ c (Proc.devRef .tc main_v4) = transpose S64x64 [1, 0] (W0 m ρ c (Proc.devRef .tc main_arg3)) Facts₀.transposes_S64x64_S64x64_1_0 := Stretch.first_v4 (W0 m ρ c)
  have f5 : W1 m ρ c (Proc.devRef .tc main_v5) = transpose S64x64 [1, 0] (W0 m ρ c (Proc.devRef .tc main_arg5)) Facts₀.transposes_S64x64_S64x64_1_0 := Stretch.first_v5 (W0 m ρ c)
  have f6 : W1 m ρ c (Proc.devRef .tc main_v6) = transpose S64x64 [1, 0] (W0 m ρ c (Proc.devRef .tc main_arg6)) Facts₀.transposes_S64x64_S64x64_1_0 := Stretch.first_v6 (W0 m ρ c)
  have f7 : W1 m ρ c (Proc.devRef .tc main_v7) = transpose S64x64 [1, 0] (W0 m ρ c (Proc.devRef .tc main_arg8)) Facts₀.transposes_S64x64_S64x64_1_0 := Stretch.first_v7 (W0 m ρ c)
  have f8 : W1 m ρ c (Proc.devRef .tc main_v8) = transpose S64x8 [1, 0] (W0 m ρ c (Proc.devRef .tc main_arg9)) Facts₀.transposes_S8x64_S64x8_1_0 := Stretch.first_v8 (W0 m ρ c)
  have f9 : W1 m ρ c (Proc.devRef .tc main_v9) = shapeCast S1x64 (W0 m ρ c (Proc.devRef .tc main_arg4)) Facts₀.shapeCasts_S64_S1x64 := Stretch.first_v9 (W0 m ρ c)
  have f10 : W1 m ρ c (Proc.devRef .tc main_v10) = shapeCast S1x64 (W0 m ρ c (Proc.devRef .tc main_arg7)) Facts₀.shapeCasts_S64_S1x64 := Stretch.first_v10 (W0 m ρ c)
  have f11 : W1 m ρ c (Proc.devRef .tc main_v11) = shapeCast S1x8 (W0 m ρ c (Proc.devRef .tc main_arg10)) Facts₀.shapeCasts_S8_S1x8 := Stretch.first_v11 (W0 m ρ c)
  rw [e6, a63, a8, a11, b51, b2, b8, b11, c50, c31, c6, c7, c10, c8, c11, c2, d31, d1, d3, d6, d7, d10, d8, d11, d2,
    f30, f0, f2, f1, f3, f4, f5, f6, f7, f8, f9, f10, f11]
  rfl

end Cert.GraphNet

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«163168_j43465069036000_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«163168_j43465069036000_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.Algebra.lean ====
/-
  The two spellings of a layer, and of the final affine map, are one function.

  A layer over all nodes is entry by entry the positive part of (Σ a·wl + Σ x·wr) + bias. The array expression that
  forms a·wl with a matrix product, adds the bias row broadcast over the nodes, then adds the product x·wr and takes the
  maximum with the zero array has the entries (Σ a·wl + bias) + Σ x·wr: the same three summands in another order, and
  addition on the extended reals is commutative and associative whatever the summands are (no finiteness is used).
  The bias reaches the two sides in two layouts, a vector recast as one row and the vector itself: entry (0, j) of the
  row is entry j of the vector.
-/
import proofs.«163168_j43465069036000_1_alg».proof.Proof.Spec
import proofs.«163168_j43465069036000_1_alg».proof.Proof.LibHostAffine

noncomputable section

open scoped BigOperators

namespace Cert.GraphNet

open Idealize.ShloMosaic Idealize.ShloMosaic.ValueIdx Cert.KernelIdeal

/-- A vector recast as a one-row matrix has the vector's entry j at (0, j). -/
theorem rowOf_apply {n : Nat} {α : Type} (v : (⟨1, ![n]⟩ : Shape).Idx → α)
    (h : (⟨1, ![n]⟩ : Shape).ShapeCasts ⟨2, ![1, n]⟩) (j : Fin n) :
    shapeCast ⟨2, ![1, n]⟩ v h (ix2 (0 : Fin 1) j) = v (ix1 j) := by
  rw [shapeCast_addUnit_apply (![n] : Fin 1 → Nat) v h (ix2 (0 : Fin 1) j)]
  congr 1
  funext a
  match a with
  | ⟨0, _⟩ => rfl

/-- The layer as the array expression product, plus bias, plus product, positive part. -/
theorem layer_eq_arrays (d : DotDims S100000x64 S64x64 S100000x64)
    (hlc : d.lhsContracting = [1]) (hrc : d.rhsContracting = [0]) (hln : d.lhsNonContracting = [0])
    (hrn : d.rhsNonContracting = [1]) (hlb : d.lhsBatch = []) (hrb : d.rhsBatch = [])
    (a x : FVec Ideal S100000x64 .f32) (wl wr : FVec Ideal S64x64 .f32) (bias : FVec Ideal S64 .f32)
    (hc : S64.ShapeCasts S1x64)
    (h1 : S64.BroadcastsInDim S1x64 (![1] : Fin 1 → Fin 2))
    (h2 : S1x64.BroadcastsInDim S100000x64 (![0, 1] : Fin 2 → Fin 2))
    (hz : S_.BroadcastsInDim S100000x64 (![] : Fin 0 → Fin 2)) :
    layer a x wl wr (shapeCast S1x64 bias hc)
      = maximumf
          (addf
            (addf (Host.dotGeneral d none a wl)
              (broadcastInDim S100000x64 (![0, 1] : Fin 2 → Fin 2) h2 (broadcastInDim S1x64 (![1] : Fin 1 → Fin 2) h1 bias)))
            (Host.dotGeneral d none x wr))
          (broadcastInDim S100000x64 (![] : Fin 0 → Fin 2) hz (constant (F := Ideal) S_ .f32 0x00000000#32)) := by
  funext i
  obtain ⟨r, j, rfl⟩ : ∃ (r : Fin 100000) (j : Fin 64), i = ix2 r j := ⟨i 0, i 1, eq_ix2 i⟩
  rw [Cert.LibHostAffine.relu_apply, addf_apply,
    Cert.LibHostAffine.affine_apply (M := 100000) (K := 64) (N := 64) d hlc hrc hln hrn hlb hrb none a wl bias h1 h2 r j]
  simp only [Host.dotGeneral]
  rw [Cert.LibDotGeneralNN.dotGeneral_apply (M := 100000) (K := 64) (N := 64) d hlc hrc hln hrn hlb hrb]
  show max (((∑ k : Fin 64, a (ix2 r k) * wl (ix2 k j)) + (∑ k : Fin 64, x (ix2 r k) * wr (ix2 k j)))
      + shapeCast S1x64 bias hc (ix2 (0 : Fin 1) j)) 0 = _
  rw [rowOf_apply (n := 64) bias hc j, add_right_comm]

/-- The scores as the array expression product plus bias. -/
theorem scores_eq_arrays (d : DotDims S256x64 S64x8 S256x8)
    (hlc : d.lhsContracting = [1]) (hrc : d.rhsContracting = [0]) (hln : d.lhsNonContracting = [0])
    (hrn : d.rhsNonContracting = [1]) (hlb : d.lhsBatch = []) (hrb : d.rhsBatch = [])
    (g : FVec Ideal S256x64 .f32) (w : FVec Ideal S64x8 .f32) (bias : FVec Ideal S8 .f32)
    (hc : S8.ShapeCasts S1x8)
    (h1 : S8.BroadcastsInDim S1x8 (![1] : Fin 1 → Fin 2))
    (h2 : S1x8.BroadcastsInDim S256x8 (![0, 1] : Fin 2 → Fin 2)) :
    scores g w (shapeCast S1x8 bias hc)
      = addf (Host.dotGeneral d none g w)
          (broadcastInDim S256x8 (![0, 1] : Fin 2 → Fin 2) h2 (broadcastInDim S1x8 (![1] : Fin 1 → Fin 2) h1 bias)) := by
  funext i
  obtain ⟨r, j, rfl⟩ : ∃ (r : Fin 256) (j : Fin 8), i = ix2 r j := ⟨i 0, i 1, eq_ix2 i⟩
  rw [Cert.LibHostAffine.affine_apply (M := 256) (K := 64) (N := 8) d hlc hrc hln hrn hlb hrb none g w bias h1 h2 r j]
  show (∑ k : Fin 64, g (ix2 r k) * w (ix2 k j)) + shapeCast S1x8 bias hc (ix2 (0 : Fin 1) j) = _
  rw [rowOf_apply (n := 8) bias hc j]

end Cert.GraphNet

end
-- ==== Proof.RefSide.lean ====
/-
  The reference program computes the network.

  Its run ends with the result array at one composed expression of the arguments: the same gathers, sums by segment
  and divisions as the network's sparse parts, and for each dense part the array expression (product, plus bias, plus
  product, positive part; product plus bias for the scores) that the layer and the scores are entry by entry.
-/
import proofs.«163168_j43465069036000_1_alg».proof.Proof.Gen.ReferenceIdeal.Run
import proofs.«163168_j43465069036000_1_alg».proof.Proof.Algebra
import proofs.«163168_j43465069036000_1_alg».proof.Proof.Network

set_option maxRecDepth 16384

noncomputable section

namespace Cert.GraphNet

open Idealize.ShloMosaic Idealize.ShloMosaic.TcCoe Idealize.SL.Sem

/-- The reference run's result term is the network of the launch contents of its arguments. -/
theorem reference_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v76 (F := Ideal) m c
      = network (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10)) := by
  unfold network conv
  simp only [layer_eq_arrays Cert.ReferenceIdeal.dot_S100000x64_S64x64_S100000x64_1_0_0_1_n_n rfl rfl rfl rfl rfl rfl
      _ _ _ _ _ _ Cert.ReferenceIdeal.Facts₀.bcast_S64_S1x64_1 Cert.ReferenceIdeal.Facts₀.bcast_S1x64_S100000x64_0_1
      Cert.ReferenceIdeal.Facts₀.bcast_S_S100000x64,
    scores_eq_arrays Cert.ReferenceIdeal.dot_S256x64_S64x8_S256x8_1_0_0_1_n_n rfl rfl rfl rfl rfl rfl
      _ _ _ _ Cert.ReferenceIdeal.Facts₀.bcast_S8_S1x8_1 Cert.ReferenceIdeal.Facts₀.bcast_S1x8_S256x8_0_1]
  unfold neighbourMean graphMean sources targets Cert.ReferenceIdeal.Value.res_main_v76
  rfl

end Cert.GraphNet

end
-- ==== Proof.lean ====
/-
  A two-layer graph convolution network with mean aggregation, a mean over each graph and an affine classifier,
  computed two ways: by a program that runs its three dense steps (the two layers' combine-and-rectify, the final
  affine map) as tiled kernels between stretches of array operations, and by a reference that is array operations
  throughout. On the extended reals both compute one function of the eleven arguments, the network:

    h1 = relu(mean_nbr(x)·W1lᵀ + x·W1rᵀ + b1),  h2 = relu(mean_nbr(h1)·W2lᵀ + h1·W2rᵀ + b2),
    out = mean_graph(h2)·Wcᵀ + bc.

  The sparse parts (the gather along edges, the sums by target node and by graph, the division by the clamped counts)
  are the same array operations in both programs and are never opened. The dense parts differ in two ways that do not
  matter on the extended reals: the kernels round their operands to a narrower format first, which is the identity
  there, and they add the bias after both products where the reference adds it between them, which is commutativity
  and associativity of addition and holds for every extended real, so the precondition (finite inputs) is not used.
  The kernels' tiling is no difference either: each block of 10000 nodes is written with exactly the layer's entries
  for those nodes, and the blocks tile the array.

  The three frame claims are the programs' runs with the results dropped; the idealization rewrote nothing, so the
  preservation claim is trivial; the algebraic claim pairs the kernel program's run (result = network of its launch
  contents) with the reference's run (result = network of its launch contents) from memories agreeing on the arguments.
-/
import proofs.«163168_j43465069036000_1_alg».proof.Defs
import proofs.«163168_j43465069036000_1_alg».proof.Proof.Gen.Kernel
import proofs.«163168_j43465069036000_1_alg».proof.Proof.Gen.Kernel.Skeleton
import proofs.«163168_j43465069036000_1_alg».proof.Proof.Gen.Kernel.Launch
import proofs.«163168_j43465069036000_1_alg».proof.Proof.Gen.Kernel.Points
import proofs.«163168_j43465069036000_1_alg».proof.Proof.Gen.Kernel.Frame
import proofs.«163168_j43465069036000_1_alg».proof.Proof.Gen.KernelIdeal
import proofs.«163168_j43465069036000_1_alg».proof.Proof.Gen.KernelIdeal.Skeleton
import proofs.«163168_j43465069036000_1_alg».proof.Proof.Gen.KernelIdeal.Launch
import proofs.«163168_j43465069036000_1_alg».proof.Proof.Gen.KernelIdeal.Points
import proofs.«163168_j43465069036000_1_alg».proof.Proof.Gen.KernelIdeal.Frame
import proofs.«163168_j43465069036000_1_alg».proof.Proof.Gen.ReferenceIdeal
import proofs.«163168_j43465069036000_1_alg».proof.Proof.Gen.ReferenceIdeal.Run
import proofs.«163168_j43465069036000_1_alg».proof.Proof.Gen.Pre_finite_inputs
import proofs.«163168_j43465069036000_1_alg».proof.Proof.KRun
import proofs.«163168_j43465069036000_1_alg».proof.Proof.Fold
import proofs.«163168_j43465069036000_1_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the network of the arguments, which agree. -/
theorem algebraic : Cert.algebraic_KernelIdeal_ReferenceIdeal := by
  intro m ρ m' ρ' _ hagree
  refine ⟨fun c => Cert.GraphNet.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.GraphNet.fold_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.GraphNet.reference_eq m' c]
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
